-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x2048 : Shape := ⟨2, ![4096, 2048]⟩
abbrev S256x2 : Shape := ⟨2, ![256, 2]⟩
abbrev S4096x1 : Shape := ⟨2, ![4096, 1]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S256x2 : S_.BroadcastsInDim S256x2 (![] : Fin 0 → Fin S256x2.rank)
  reducesTo_S256x2_S_d0_1 : S256x2.ReducesTo [0, 1] S_
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2x2048x4096 .f32) (main_arg1 : IVec S4096x2048 32) (main_arg2 : FVec F S256x2 .f32) (main_arg3 : FVec F S4096x1 .f32) (main_arg4 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S256x2 .f32 := Host.absf main_arg2
  let main_cst_0 : FVec F S_ .f32 := constant S_ .f32 0x7F800000#32
  let main_v5 : FVec F S256x2 .f32 := broadcastInDim S256x2 ![] bcast_S_S256x2 main_cst_0
  let main_v6 : IVec S256x2 1 := cmpf .olt main_v4 main_v5
  let main_c_1 : IVec S_ 1 := constantI S_ 1 1#1
  let main_v7 : IVec S_ 1 := (fun x v => Host.reduce IntOp.andi x v reducesTo_S256x2_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2x2048x4096 : Shape := ⟨3, ![2, 2048, 4096]⟩
abbrev S4096x2048 : Shape := ⟨2, ![4096, 2048]⟩
abbrev S256x2 : Shape := ⟨2, ![256, 2]⟩
abbrev S4096x1 : Shape := ⟨2, ![4096, 1]⟩
abbrev S4096 : Shape := ⟨1, ![4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 22
  | .vmem => 11
  | .smem => 0
  | _ => 0

abbrev bufTy : (tb : Table) → Fin (tcTables nBuf tb) → BufTy
  | .hbm, ⟨0, _⟩ => ⟨S2x2048x4096, .f32⟩
  | .hbm, ⟨1, _⟩ => ⟨S4096x2048, .i32⟩
  | .hbm, ⟨2, _⟩ => ⟨S256x2, .f32⟩
  | .hbm, ⟨3, _⟩ => ⟨S4096x1, .f32⟩
  | .hbm, ⟨4, _⟩ => ⟨S4096, .f32⟩
  | .hbm, ⟨5, _⟩ => ⟨S_, .i32⟩
  | .hbm, ⟨6, _⟩ => ⟨S4096x2048, .i32⟩
  | .hbm, ⟨7, _⟩ => ⟨S4096x2048, .i1⟩
  | .hbm, ⟨8, _⟩ => ⟨S_, .i32⟩
  | .hbm, ⟨9, _⟩ => ⟨S4096x2048, .i32⟩
  | .hbm, ⟨10, _⟩ => ⟨S4096x2048, .i32⟩
  | .hbm, ⟨11, _⟩ => ⟨S4096x2048, .i32⟩
  | .hbm, ⟨12, _⟩ => ⟨S4096x2048x1, .i32⟩
  | .hbm, ⟨13, _⟩ => ⟨S4096x2048x2, .f32⟩
  | .hbm, ⟨14, _⟩ => ⟨S4096x4096, .f32⟩
  | .hbm, ⟨15, _⟩ => ⟨S4096x4096, .bf16⟩
  | .hbm, ⟨16, _⟩ => ⟨S4096x4096, .f32⟩
  | .hbm, ⟨17, _⟩ => ⟨S4096x4096, .bf16⟩
  | .hbm, ⟨18, _⟩ => ⟨S1x4096, .f32⟩
  | .hbm, ⟨19, _⟩ => ⟨S1x4096, .f32⟩
  | .hbm, ⟨20, _⟩ => ⟨S4096x4096, .f32⟩
  | .hbm, ⟨21, _⟩ => ⟨S2x2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  shapeCasts_S4096x2048x2_S4096x4096 : S4096x2048x2.ShapeCasts S4096x4096
  bitsLt_bf16_f32 : FTy.bits .bf16 < FTy.bits .f32
  shapeCasts_S2x2048x4096_S4096x4096 : S2x2048x4096.ShapeCasts S4096x4096
  shapeCasts_S4096x1_S1x4096 : S4096x1.ShapeCasts S1x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S4096x4096_S2x2048x4096 : S4096x4096.ShapeCasts S2x2048x4096
  gather_S256x2_S4096x2048x1_S4096x2048x2_2_0_n_n_0_2_12_wf : GatherDims.WF S256x2 S4096x2048x1 S4096x2048x2 [2] [0] [] [0] [] 2 ![1, 2]
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x4096.size a
  hwx0_0 : ∀ i : grid0.Coords, EltTy.bits .bf16 = 32 ∨ (Rect.block (s := S4096x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S4096x4096.size a
  hwx0_4 : ∀ i : grid0.Coords, EltTy.bits .f32 = 32 ∨ (Rect.block (s := S4096x4096) S2048x1024.size (cc0_transform_4 i) (hinb0_4 i)).WholeWords (EltTy.packing .f32)

variable [Facts₀]

def gather_S256x2_S4096x2048x1_S4096x2048x2_2_0_n_n_0_2_12 : GatherDims S256x2 S4096x2048x1 S4096x2048x2 where
  offsetDims := [2]
  collapsedSliceDims := [0]
  operandBatchingDims := []
  startIndicesBatchingDims := []
  startIndexMap := [0]
  indexVectorDim := 2
  sliceSizes := ![1, 2]
  wf := gather_S256x2_S4096x2048x1_S4096x2048x2_2_0_n_n_0_2_12_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v10) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x2048 : Shape := ⟨2, ![4096, 2048]⟩
abbrev S256x2 : Shape := ⟨2, ![256, 2]⟩
abbrev S4096x1 : Shape := ⟨2, ![4096, 1]⟩
abbrev S4096 : Shape := ⟨1, ![4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x2048, .i32⟩
  | .hbm, ⟨2, _⟩ => ⟨S256x2, .f32⟩
  | .hbm, ⟨3, _⟩ => ⟨S4096x1, .f32⟩
  | .hbm, ⟨4, _⟩ => ⟨S4096, .f32⟩
  | .hbm, ⟨5, _⟩ => ⟨S_, .i32⟩
  | .hbm, ⟨6, _⟩ => ⟨S4096x2048, .i32⟩
  | .hbm, ⟨7, _⟩ => ⟨S4096x2048, .i1⟩
  | .hbm, ⟨8, _⟩ => ⟨S_, .i32⟩
  | .hbm, ⟨9, _⟩ => ⟨S4096x2048, .i32⟩
  | .hbm, ⟨10, _⟩ => ⟨S4096x2048, .i32⟩
  | .hbm, ⟨11, _⟩ => ⟨S4096x2048, .i32⟩
  | .hbm, ⟨12, _⟩ => ⟨S4096x2048x1, .i32⟩
  | .hbm, ⟨13, _⟩ => ⟨S4096x2048x2, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S2x2048x4096, .f32⟩
  | .hbm, ⟨18, _⟩ => ⟨S1x1x4096, .f32⟩
  | .hbm, ⟨19, _⟩ => ⟨S2x2048x4096, .f32⟩
  | .hbm, ⟨20, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  shapeCasts_S4096x2048x2_S4096x4096 : S4096x2048x2.ShapeCasts S4096x4096
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  gather_S256x2_S4096x2048x1_S4096x2048x2_2_0_n_n_0_2_12_wf : GatherDims.WF S256x2 S4096x2048x1 S4096x2048x2 [2] [0] [] [0] [] 2 ![1, 2]
  dot_S2x2048x4096_S4096x4096_S2x2048x4096_2_1_01_0_n_n_wf : DotDims.WF S2x2048x4096 S4096x4096 S2x2048x4096 [2] [1] [0, 1] [0] [] []

variable [Facts₀]

def gather_S256x2_S4096x2048x1_S4096x2048x2_2_0_n_n_0_2_12 : GatherDims S256x2 S4096x2048x1 S4096x2048x2 where
  offsetDims := [2]
  collapsedSliceDims := [0]
  operandBatchingDims := []
  startIndicesBatchingDims := []
  startIndexMap := [0]
  indexVectorDim := 2
  sliceSizes := ![1, 2]
  wf := gather_S256x2_S4096x2048x1_S4096x2048x2_2_0_n_n_0_2_12_wf
def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Cases.lean ====
/-
  What one grid point's body leaves behind, case by case.

  The body keeps a running total in a scratch block of 2048 × 1024 entries.  At the first chunk of a contraction
  (case A) it stores zero there and then adds the chunk's product; at a middle chunk (case B) it adds the chunk's
  product to what the point before left; at the last chunk (case C) it does the same and then writes the output
  block: the total times the scale row plus the bias row.
-/
import proofs.«181760_j80504866996441_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-- Case A leaves in the scratch: the chunk's product added to the zero block. -/
theorem scratch_A (c : Dev nD) (i : grid0.Coords) (a3 : Memref sig .tc .vmem S2048x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : cond0_0 i) (hc1 : ¬cond0_1 i) (x0 : Vec F S2048x1024 .bf16) (x1 : Vec F S1024x1024 .bf16) (x2 : Vec F S1x1024 .f32) (x3 : Vec F S1x1024 .f32) :
    sout0_A_0 c i a3 h3 a4 h4 a5 h5 a6 h6 a7 h7 a8 h8 hc0 hc1 x0 x1 x2 x3 = k0_pay2 (k0_pay1 (F := F)) x0 x1 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x1024) hz,
    View.ld_unit_zero (S := S1024x1024) hz]

/-- Case B leaves in the scratch: the chunk's product added to what the scratch held. -/
theorem scratch_B (c : Dev nD) (i : grid0.Coords) (a3 : Memref sig .tc .vmem S2048x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : ¬cond0_1 i) (x0 : Vec F S2048x1024 .bf16) (x1 : Vec F S1024x1024 .bf16) (x2 : Vec F S1x1024 .f32) (x3 : Vec F S1x1024 .f32) (xs0 : Vec F S2048x1024 .f32) :
    sout0_B_0 c i a3 h3 a4 h4 a5 h5 a6 h6 a7 h7 a8 h8 hc0 hc1 x0 x1 x2 x3 xs0 = k0_pay2 xs0 x0 x1 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  rw [View.canon_unit_zero (S := S2048x1024) hz]
  simp only [View.readAt_eq_ld, h3.read_unread, h4.read_unread, h8.read_unread, View.ld_unit_zero (S := S2048x1024) hz,
    View.ld_unit_zero (S := S1024x1024) hz]

/-- Case C leaves in the scratch the same as case B. -/
theorem scratch_C (c : Dev nD) (i : grid0.Coords) (a3 : Memref sig .tc .vmem S2048x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : cond0_1 i) (x0 : Vec F S2048x1024 .bf16) (x1 : Vec F S1024x1024 .bf16) (x2 : Vec F S1x1024 .f32) (x3 : Vec F S1x1024 .f32) (xs0 : Vec F S2048x1024 .f32) :
    sout0_C_0 c i a3 h3 a4 h4 a5 h5 a6 h6 a7 h7 a8 h8 hc0 hc1 x0 x1 x2 x3 xs0 = k0_pay2 xs0 x0 x1 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero (S := S2048x1024) hz]
  simp only [View.readAt_eq_ld, h3.read_unread, h4.read_unread, h8.read_unread, View.ld_unit_zero (S := S2048x1024) hz,
    View.ld_unit_zero (S := S1024x1024) hz]

/-- Case C writes the output block: the new total, times the scale row, plus the bias row. -/
theorem out_C (c : Dev nD) (i : grid0.Coords) (a3 : Memref sig .tc .vmem S2048x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : cond0_1 i) (x0 : Vec F S2048x1024 .bf16) (x1 : Vec F S1024x1024 .bf16) (x2 : Vec F S1x1024 .f32) (x3 : Vec F S1x1024 .f32) (xs0 : Vec F S2048x1024 .f32) :
    out0_C_4 c i a3 h3 a4 h4 a5 h5 a6 h6 a7 h7 a8 h8 hc0 hc1 x0 x1 x2 x3 xs0 = k0_pay3 (k0_pay2 xs0 x0 x1) x2 x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero (S := S2048x1024) hz, View.readCov_unit_zero (S := S2048x1024) _ hz]
  simp only [View.readAt_eq_ld, h3.read_unread, h4.read_unread, h5.read_unread, h6.read_unread, h8.read_unread,
    View.ld_unit_zero (S := S2048x1024) hz, View.ld_unit_zero (S := S1024x1024) hz, View.ld_unit_zero (S := S1x1024) hz]

end Cert.KernelIdeal.Cases

end
-- ==== Proof.Blocks.lean ====
/-
  The four input blocks of a grid point, each named once with its literal shape.

  Point `t` of the 2 × 4 × 4 grid is (row block, column block, chunk) = (t / 16, t / 4 % 4, t % 4).  It is handed
  rows `2048 · (t / 16) …` and columns `1024 · (t % 4) …` of the activations, rows `1024 · (t / 4 % 4) …` and the
  same columns of the weights, and columns `1024 · (t / 4 % 4) …` of the one-row scale and bias arrays.
-/
import proofs.«181760_j80504866996441_2_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The activation block at point `t`: 2048 rows, one chunk of 1024 columns. -/
def actBlk (c : Dev nD) (t : Fin cfg0.N) : Vec F S2048x1024 .bf16 := iblk m c 0 t
/-- The weight block at point `t`: 1024 rows (output features), the same chunk of columns. -/
def wgtBlk (c : Dev nD) (t : Fin cfg0.N) : Vec F S1024x1024 .bf16 := iblk m c 1 t
/-- The scale row at point `t`. -/
def sclBlk (c : Dev nD) (t : Fin cfg0.N) : Vec F S1x1024 .f32 := iblk m c 2 t
/-- The bias row at point `t`. -/
def biasBlk (c : Dev nD) (t : Fin cfg0.N) : Vec F S1x1024 .f32 := iblk m c 3 t

/-- The printed index maps in closed form, decided over the 32 grid points. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = 0 ∧ win0_3.index t (1 : Fin 2) = t.val / 4 % 4
    ∧ win0_4.index t (0 : Fin 2) = t.val / 16 ∧ win0_4.index t (1 : Fin 2) = t.val / 4 % 4 :=
  (by decide +kernel : ∀ t : Fin grid0.N, _)

/-- Entry `(p, k)` of the activation block is the activation array at row `2048 · (t / 16) + p`, column `1024 · (t % 4) + k`. -/
theorem act_apply (c : Dev nD) (t : Fin cfg0.N) (p : Fin 2048) (k : Fin 1024) (i : S4096x4096.Idx)
    (h0 : (i 0).val = t.val / 16 * 2048 + p.val) (h1 : (i 1).val = t.val % 4 * 1024 + k.val) :
    actBlk m c t (ix2 p k) = V m c main_v10 i := by
  have hf := idx_facts t
  unfold actBlk iblk
  rw [View.read_apply]
  show V m c main_v10 _ = V m c main_v10 i
  refine congrArg (V m c main_v10) (funext fun a => Fin.ext ?_)
  match a with
  | ⟨0, _⟩ =>
    show win0_0.index t (0 : Fin 2) * 2048 + 1 * p.val = (i 0).val
    rw [hf.1, h0]; omega
  | ⟨1, _⟩ =>
    show win0_0.index t (1 : Fin 2) * 1024 + 1 * k.val = (i 1).val
    rw [hf.2.1, h1]; omega

/-- Entry `(q, k)` of the weight block is the weight array at row `1024 · (t / 4 % 4) + q`, column `1024 · (t % 4) + k`. -/
theorem wgt_apply (c : Dev nD) (t : Fin cfg0.N) (p : Fin 1024) (k : Fin 1024) (i : S4096x4096.Idx)
    (h0 : (i 0).val = t.val / 4 % 4 * 1024 + p.val) (h1 : (i 1).val = t.val % 4 * 1024 + k.val) :
    wgtBlk m c t (ix2 p k) = V m c main_v8 i := by
  have hf := idx_facts t
  unfold wgtBlk iblk
  rw [View.read_apply]
  show V m c main_v8 _ = V m c main_v8 i
  refine congrArg (V m c main_v8) (funext fun a => Fin.ext ?_)
  match a with
  | ⟨0, _⟩ =>
    show win0_1.index t (0 : Fin 2) * 1024 + 1 * p.val = (i 0).val
    rw [hf.2.2.1, h0]; omega
  | ⟨1, _⟩ =>
    show win0_1.index t (1 : Fin 2) * 1024 + 1 * k.val = (i 1).val
    rw [hf.2.2.2.1, h1]; omega

/-- Entry `(0, q)` of the scale row is the scale array at column `1024 · (t / 4 % 4) + q`. -/
theorem scl_apply (c : Dev nD) (t : Fin cfg0.N) (p : Fin 1) (k : Fin 1024) (i : S1x4096.Idx)
    (h0 : (i 0).val = p.val) (h1 : (i 1).val = t.val / 4 % 4 * 1024 + k.val) :
    sclBlk m c t (ix2 p k) = V m c main_v11 i := by
  have hf := idx_facts t
  unfold sclBlk iblk
  rw [View.read_apply]
  show V m c main_v11 _ = V m c main_v11 i
  refine congrArg (V m c main_v11) (funext fun a => Fin.ext ?_)
  match a with
  | ⟨0, _⟩ =>
    show win0_2.index t (0 : Fin 2) * 1 + 1 * p.val = (i 0).val
    rw [hf.2.2.2.2.1, h0]; omega
  | ⟨1, _⟩ =>
    show win0_2.index t (1 : Fin 2) * 1024 + 1 * k.val = (i 1).val
    rw [hf.2.2.2.2.2.1, h1]; omega

/-- Entry `(0, q)` of the bias row is the bias array at column `1024 · (t / 4 % 4) + q`. -/
theorem bias_apply (c : Dev nD) (t : Fin cfg0.N) (p : Fin 1) (k : Fin 1024) (i : S1x4096.Idx)
    (h0 : (i 0).val = p.val) (h1 : (i 1).val = t.val / 4 % 4 * 1024 + k.val) :
    biasBlk m c t (ix2 p k) = V m c main_v12 i := by
  have hf := idx_facts t
  unfold biasBlk iblk
  rw [View.read_apply]
  show V m c main_v12 _ = V m c main_v12 i
  refine congrArg (V m c main_v12) (funext fun a => Fin.ext ?_)
  match a with
  | ⟨0, _⟩ =>
    show win0_3.index t (0 : Fin 2) * 1 + 1 * p.val = (i 0).val
    rw [hf.2.2.2.2.2.2.1, h0]; omega
  | ⟨1, _⟩ =>
    show win0_3.index t (1 : Fin 2) * 1024 + 1 * k.val = (i 1).val
    rw [hf.2.2.2.2.2.2.2.1, h1]; omega

end Cert.KernelIdeal.Blocks

end
-- ==== Proof.Accum.lean ====
/-
  The running total across grid points.

  The 32 grid points are visited in row-major order of (row block, column block, chunk), the chunk moving fastest:
  point `n` works on chunk `n % 4`.  The scratch block after point `n` is the sum of the products of the chunks
  `0 … n % 4` of the point's row and column blocks, added in that order to zero; the output block written at a point
  with `n % 4 = 3` is that total times the scale row plus the bias row.
-/
import proofs.«181760_j80504866996441_2_alg».proof.Proof.Gen.KernelIdeal.Frame
import Idealize.ShloMosaic.Lib.Pipeline.Value
import Idealize.ShloMosaic.Lib.Tactic
import proofs.«181760_j80504866996441_2_alg».proof.Proof.Cases
import proofs.«181760_j80504866996441_2_alg».proof.Proof.Blocks

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Blocks

variable {F : FTy → Type} [FloatOps F]
variable (m : (ℓ : Loc nD τ sig) → Buf (Elt F) ℓ)

/-! ## One point's step, case by case -/

/-- A first-chunk point leaves the chunk's product added to zero. -/
theorem step_A (c : Dev nD) (t : Fin cfg0.N) (h0 : t.val % 4 = 0) (h1 : ¬t.val % 4 = 3) :
    (outsAt0 m c t.val t.isLt).2 = k0_pay2 (k0_pay1 (F := F)) (actBlk m c t) (wgtBlk m c t) := by
  rw [outsAt0_A m c t h0 h1]
  dsimp only
  exact Cases.scratch_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (actBlk m c t) (wgtBlk m c t) (sclBlk m c t) (biasBlk m c t)

/-- A middle-chunk point adds the chunk's product to what the point before left. -/
theorem step_B (c : Dev nD) (t : Fin cfg0.N) (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (actBlk m c t) (wgtBlk m c t) := by
  rw [outsAt0_B m c t h0 h1]
  dsimp only
  exact Cases.scratch_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (actBlk m c t) (wgtBlk m c t) (sclBlk m c t) (biasBlk m c t) (outsAt0 m c (t.val - 1) (Nat.lt_of_le_of_lt (Nat.sub_le _ _) t.isLt)).2

/-- A last-chunk point does the same to the scratch … -/
theorem step_C (c : Dev nD) (t : Fin cfg0.N) (h0 : ¬t.val % 4 = 0) (h1 : t.val % 4 = 3) :
    (outsAt0 m c t.val t.isLt).2 = k0_pay2 (outsAt0 m c (t.val - 1) (Nat.lt_of_le_of_lt (Nat.sub_le _ _) t.isLt)).2 (actBlk m c t) (wgtBlk m c t) := by
  rw [outsAt0_C m c t h0 h1]
  dsimp only
  exact Cases.scratch_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (actBlk m c t) (wgtBlk m c t) (sclBlk m c t) (biasBlk m c t) (outsAt0 m c (t.val - 1) (Nat.lt_of_le_of_lt (Nat.sub_le _ _) t.isLt)).2

/-- … and writes the output block from the new total. -/
theorem step_out (c : Dev nD) (t : Fin cfg0.N) (h0 : ¬t.val % 4 = 0) (h1 : t.val % 4 = 3) :
    (outsAt0 m c t.val t.isLt).1
      = k0_pay3 (k0_pay2 (outsAt0 m c (t.val - 1) (Nat.lt_of_le_of_lt (Nat.sub_le _ _) t.isLt)).2 (actBlk m c t) (wgtBlk m c t)) (sclBlk m c t) (biasBlk m c t) := by
  rw [outsAt0_C m c t h0 h1]
  dsimp only
  exact Cases.out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (actBlk m c t) (wgtBlk m c t) (sclBlk m c t) (biasBlk m c t) (outsAt0 m c (t.val - 1) (Nat.lt_of_le_of_lt (Nat.sub_le _ _) t.isLt)).2

/-- The generated contents depend on the point's number only. -/
theorem outs_congr (c : Dev nD) (k n : ℕ) (hk : k = n) (h' : k < cfg0.N) (h : n < cfg0.N) :
    outsAt0 m c k h' = outsAt0 m c n h := by
  subst hk; rfl

/-! ## The running total -/

/-- The scratch block after point `n`: a first chunk starts from zero, a later chunk from the point before. -/
def total (c : Dev nD) : (n : ℕ) → n < cfg0.N → Vec F S2048x1024 .f32
  | 0, h => k0_pay2 (k0_pay1 (F := F)) (actBlk m c ⟨0, h⟩) (wgtBlk m c ⟨0, h⟩)
  | n + 1, h =>
    if (n + 1) % 4 = 0 then k0_pay2 (k0_pay1 (F := F)) (actBlk m c ⟨n + 1, h⟩) (wgtBlk m c ⟨n + 1, h⟩)
    else k0_pay2 (total c n (Nat.lt_of_succ_lt h)) (actBlk m c ⟨n + 1, h⟩) (wgtBlk m c ⟨n + 1, h⟩)

/-- At a first chunk. -/
theorem total_first (c : Dev nD) (n : ℕ) (h : n < cfg0.N) (h0 : n % 4 = 0) :
    total m c n h = k0_pay2 (k0_pay1 (F := F)) (actBlk m c ⟨n, h⟩) (wgtBlk m c ⟨n, h⟩) := by
  cases n with
  | zero => rfl
  | succ n => exact if_pos h0

/-- At a later chunk. -/
theorem total_next (c : Dev nD) (n : ℕ) (h : n + 1 < cfg0.N) (h0 : ¬(n + 1) % 4 = 0) :
    total m c (n + 1) h = k0_pay2 (total m c n (Nat.lt_of_succ_lt h)) (actBlk m c ⟨n + 1, h⟩) (wgtBlk m c ⟨n + 1, h⟩) :=
  if_neg h0

attribute [irreducible] total

/-- The generated contents of the scratch after each point are the running total. -/
theorem scratch_eq (c : Dev nD) : ∀ (n : ℕ) (h : n < cfg0.N), (outsAt0 m c n h).2 = total m c n h
  | 0, h => (step_A m c ⟨0, h⟩ (Nat.zero_mod _) (fun e => by dsimp only at e; omega)).trans
      (total_first m c 0 h (Nat.zero_mod _)).symm
  | n + 1, h => by
    by_cases h0 : (n + 1) % 4 = 0
    · exact (step_A m c ⟨n + 1, h⟩ h0 (fun e => by dsimp only at e; omega)).trans (total_first m c (n + 1) h h0).symm
    · have ih : (outsAt0 m c ((⟨n + 1, h⟩ : Fin cfg0.N).val - 1) (Nat.lt_of_le_of_lt (Nat.sub_le _ _) (⟨n + 1, h⟩ : Fin cfg0.N).isLt)).2
          = total m c n (Nat.lt_of_succ_lt h) :=
        (congrArg Prod.snd (outs_congr m c _ n (Nat.add_sub_cancel n 1) _ (Nat.lt_of_succ_lt h))).trans
          (scratch_eq c n (Nat.lt_of_succ_lt h))
      have e : (outsAt0 m c (n + 1) h).2
          = k0_pay2 (outsAt0 m c ((⟨n + 1, h⟩ : Fin cfg0.N).val - 1) (Nat.lt_of_le_of_lt (Nat.sub_le _ _) (⟨n + 1, h⟩ : Fin cfg0.N).isLt)).2 (actBlk m c ⟨n + 1, h⟩) (wgtBlk m c ⟨n + 1, h⟩) := by
        by_cases h1 : (n + 1) % 4 = 3
        · exact step_C m c ⟨n + 1, h⟩ h0 h1
        · exact step_B m c ⟨n + 1, h⟩ h0 h1
      refine e.trans (Eq.trans ?_ (total_next m c n h h0).symm)
      exact congrArg (fun z => k0_pay2 z (actBlk m c ⟨n + 1, h⟩) (wgtBlk m c ⟨n + 1, h⟩)) ih

/-- The output block a last-chunk point writes: the running total there, times the scale row, plus the bias row. -/
theorem out_eq (c : Dev nD) (t : Fin cfg0.N) (h1 : t.val % 4 = 3) :
    (outsAt0 m c t.val t.isLt).1 = k0_pay3 (total m c t.val t.isLt) (sclBlk m c t) (biasBlk m c t) := by
  have h0 : ¬t.val % 4 = 0 := by omega
  refine (step_out m c t h0 h1).trans ?_
  refine congrArg (fun z => k0_pay3 z (sclBlk m c t) (biasBlk m c t)) ?_
  exact (step_C m c t h0 h1).symm.trans (scratch_eq m c t.val t.isLt)

end Cert.KernelIdeal.Accum

end
-- ==== Proof.Payload.lean ====
/-
  The body's three stored values, read at one entry, over the extended reals.

  With `p` a row of the 2048-row activation block, `q` a row of the 1024-row weight block and `k` one of the
  chunk's 1024 columns:
    the zero block is `0` everywhere;
    the accumulate step is `acc (p, q) + ∑ k, a (p, k) * b (q, k)` — both operands are contracted along their
      second axis, so the weight block is used transposed;
    the epilogue is `acc (p, q) * s (0, q) + β (0, q)`: one scale row and one bias row serve all 2048 rows.
  A change of float format is the identity here, and so is a cast of a block to its own shape.
-/
import proofs.«181760_j80504866996441_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- The block the first chunk starts from is zero at every entry. -/
theorem zero_apply (y : S2048x1024.Idx) : k0_pay1 (F := Ideal) y = 0 := by
  unfold k0_pay1
  rw [shapeCast_self]
  exact Ideal.ofBits_zero_f32

/-- At output `j` and contraction index `κ` the activation block is read in row `j 0` … -/
theorem lhs_row (j : S2048x1024.Idx) (κ : dot_S2048x1024_S1024x1024_S2048x1024_1_1_0_0_n_n.contr.Idx) : (dot_S2048x1024_S1024x1024_S2048x1024_1_1_0_0_n_n.lhsIdx j κ 0).val = (j 0).val := by
  unfold DotDims.lhsIdx
  rw [dif_neg (show ¬(0 : Fin S2048x1024.rank) ∈ dot_S2048x1024_S1024x1024_S2048x1024_1_1_0_0_n_n.lhsBatch by decide),
    dif_pos (show (0 : Fin S2048x1024.rank) ∈ dot_S2048x1024_S1024x1024_S2048x1024_1_1_0_0_n_n.lhsNonContracting by decide)]
  rfl
/-- … at the contracted column; -/
theorem lhs_col (j : S2048x1024.Idx) (κ : dot_S2048x1024_S1024x1024_S2048x1024_1_1_0_0_n_n.contr.Idx) : (dot_S2048x1024_S1024x1024_S2048x1024_1_1_0_0_n_n.lhsIdx j κ 1).val = (κ ⟨0, by decide⟩).val :=
  dot_S2048x1024_S1024x1024_S2048x1024_1_1_0_0_n_n.lhsIdx_val_of_single rfl j κ
/-- the weight block in row `j 1` — the weight block is used transposed — … -/
theorem rhs_row (j : S2048x1024.Idx) (κ : dot_S2048x1024_S1024x1024_S2048x1024_1_1_0_0_n_n.contr.Idx) : (dot_S2048x1024_S1024x1024_S2048x1024_1_1_0_0_n_n.rhsIdx j κ 0).val = (j 1).val := by
  unfold DotDims.rhsIdx
  rw [dif_neg (show ¬(0 : Fin S1024x1024.rank) ∈ dot_S2048x1024_S1024x1024_S2048x1024_1_1_0_0_n_n.rhsBatch by decide),
    dif_pos (show (0 : Fin S1024x1024.rank) ∈ dot_S2048x1024_S1024x1024_S2048x1024_1_1_0_0_n_n.rhsNonContracting by decide)]
  rfl
/-- … at the same contracted column. -/
theorem rhs_col (j : S2048x1024.Idx) (κ : dot_S2048x1024_S1024x1024_S2048x1024_1_1_0_0_n_n.contr.Idx) : (dot_S2048x1024_S1024x1024_S2048x1024_1_1_0_0_n_n.rhsIdx j κ 1).val = (κ ⟨0, by decide⟩).val :=
  dot_S2048x1024_S1024x1024_S2048x1024_1_1_0_0_n_n.rhsIdx_val_of_single rfl j κ

/-- The activation index the product reads at output `(p, q)` and column `k` is `(p, k)`. -/
theorem lhs_idx (p : Fin 2048) (q : Fin 1024) (k : Fin 1024) :
    dot_S2048x1024_S1024x1024_S2048x1024_1_1_0_0_n_n.lhsIdx (ix2 p q) ((contrEquiv1 dot_S2048x1024_S1024x1024_S2048x1024_1_1_0_0_n_n 1024 rfl rfl).symm k) = ix2 p k := by
  have hk := contrEquiv1_symm_val dot_S2048x1024_S1024x1024_S2048x1024_1_1_0_0_n_n 1024 rfl rfl k
  exact funext fun d => Fin.ext (by
    match d with
    | ⟨0, _⟩ => exact lhs_row _ _
    | ⟨1, _⟩ => exact (lhs_col _ _).trans hk)

/-- The weight index it reads there is `(q, k)`: row `q` of the weight block, the same column. -/
theorem rhs_idx (p : Fin 2048) (q : Fin 1024) (k : Fin 1024) :
    dot_S2048x1024_S1024x1024_S2048x1024_1_1_0_0_n_n.rhsIdx (ix2 p q) ((contrEquiv1 dot_S2048x1024_S1024x1024_S2048x1024_1_1_0_0_n_n 1024 rfl rfl).symm k) = ix2 q k := by
  have hk := contrEquiv1_symm_val dot_S2048x1024_S1024x1024_S2048x1024_1_1_0_0_n_n 1024 rfl rfl k
  exact funext fun d => Fin.ext (by
    match d with
    | ⟨0, _⟩ => exact rhs_row _ _
    | ⟨1, _⟩ => exact (rhs_col _ _).trans hk)

/-- The accumulate step at `(p, q)`: the old total there plus the chunk's 1024 products. -/
theorem step_apply (acc : Vec Ideal S2048x1024 .f32) (a : Vec Ideal S2048x1024 .bf16) (b : Vec Ideal S1024x1024 .bf16)
    (p : Fin 2048) (q : Fin 1024) :
    k0_pay2 (F := Ideal) acc a b (ix2 p q) = acc (ix2 p q) + ∑ k : Fin 1024, a (ix2 p k) * b (ix2 q k) := by
  unfold k0_pay2
  simp only [shapeCast_self]
  refine (addf_apply (s := S2048x1024) (φ := .f32) acc _ (ix2 p q)).trans ?_
  refine congrArg (acc (ix2 p q) + ·) ?_
  refine (Ideal.matmul_constant_zero_apply (φ₁ := .bf16) (φ₂ := .bf16) dot_S2048x1024_S1024x1024_S2048x1024_1_1_0_0_n_n none a b (ix2 p q)).trans ?_
  rw [← Equiv.sum_comp (contrEquiv1 dot_S2048x1024_S1024x1024_S2048x1024_1_1_0_0_n_n 1024 rfl rfl).symm]
  exact Finset.sum_congr rfl fun k _ => by rw [lhs_idx p q k, rhs_idx p q k]

/-- The epilogue at `(p, q)`: the total there times the scale of column `q`, plus the bias of column `q`. -/
theorem epilogue_apply (acc : Vec Ideal S2048x1024 .f32) (s β : Vec Ideal S1x1024 .f32) (p : Fin 2048) (q : Fin 1024) :
    k0_pay3 (F := Ideal) acc s β (ix2 p q) = acc (ix2 p q) * s (ix2 (0 : Fin 1) q) + β (ix2 (0 : Fin 1) q) := by
  unfold k0_pay3
  simp only [shapeCast_self]
  refine (addf_apply (s := S2048x1024) (φ := .f32) _ _ (ix2 p q)).trans ?_
  refine congrArg₂ (· + ·) ((mulf_apply (s := S2048x1024) (φ := .f32) acc _ (ix2 p q)).trans ?_) ?_
  · exact congrArg (acc (ix2 p q) * ·) (broadcastTo_1b_ab_apply s broadcasts_S1x1024_S2048x1024 p q)
  · exact broadcastTo_1b_ab_apply β broadcasts_S1x1024_S2048x1024 p q

end Cert.KernelIdeal.Payload

end
-- ==== Proof.Law.lean ====
/-
  The algebra that joins the two programs, over the extended reals.

  The kernel contracts the 4096 columns in four consecutive chunks of 1024, adds the chunk sums one after the other
  to a zero start, multiplies the total by the row's scale and adds the bias.  The reference scales every weight
  first, contracts the 4096 columns in one sum, and adds the bias.

  Two facts make the two equal.  (1) A sum over `Fin 4096` is the iterated sum of its four chunks: addition of
  extended reals is associative and commutative, so no finiteness is needed.  (2) A common factor moves across a
  finite sum, `(∑ x k * w k) * s = ∑ x k * (w k * s)`: this is distributivity, false at infinities, and is proved
  for REAL entries by pushing the coercion `ℝ → EReal` out of both sides.
-/
import Idealize.ShloMosaic.PureOps.Ideal

namespace Cert.Law

open BigOperators

/-- An extended real that is a real number. -/
def IsReal (x : EReal) : Prop := ∃ r : ℝ, x = (r : EReal)

/-- The coercion of a finite real sum is the sum of the coercions. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A real common factor moves across a finite sum of products of reals. -/
theorem sum_mul_real {ι : Type} [Fintype ι] (x w : ι → EReal) (s : EReal)
    (hx : ∀ k, IsReal (x k)) (hw : ∀ k, IsReal (w k)) (hs : IsReal s) :
    (∑ k, x k * w k) * s = ∑ k, x k * (w k * s) := by
  choose a ha using hx
  choose b hb using hw
  obtain ⟨σ, rfl⟩ := hs
  have e1 : (∑ k, x k * w k) = ((∑ k, a k * b k : ℝ) : EReal) := by
    rw [coe_sum]
    exact Finset.sum_congr rfl fun k _ => by rw [ha k, hb k, EReal.coe_mul]
  have e2 : (∑ k, x k * (w k * (σ : EReal))) = ((∑ k, a k * (b k * σ) : ℝ) : EReal) := by
    rw [coe_sum]
    exact Finset.sum_congr rfl fun k _ => by rw [ha k, hb k, EReal.coe_mul, EReal.coe_mul]
  rw [e1, e2, ← EReal.coe_mul, Finset.sum_mul]
  exact congrArg _ (Finset.sum_congr rfl fun k _ => by ring)

/-- Column `kk` of chunk `j`, of four chunks of 1024 columns. -/
def col (j : Fin 4) (kk : Fin 1024) : Fin 4096 := ⟨j.val * 1024 + kk.val, by have := j.isLt; have := kk.isLt; omega⟩

/-- A sum over the 4096 columns is the sum over the four chunks of the chunk sums. -/
theorem sum_chunks (g : Fin 4096 → EReal) : ∑ K, g K = ∑ j : Fin 4, ∑ kk : Fin 1024, g (col j kk) := by
  rw [← Fintype.sum_prod_type' (f := fun j kk => g (col j kk))]
  refine (Fintype.sum_equiv (finProdFinEquiv (m := 4) (n := 1024)) _ _ fun p => ?_).symm
  refine congrArg g (Fin.ext ?_)
  show p.1.val * 1024 + p.2.val = p.2.val + 1024 * p.1.val
  omega

/-- The kernel's order: the four chunk sums added one after the other to zero. -/
theorem chain_eq_sum (g : Fin 4096 → EReal) :
    (((0 + ∑ kk, g (col 0 kk)) + ∑ kk, g (col 1 kk)) + ∑ kk, g (col 2 kk)) + ∑ kk, g (col 3 kk) = ∑ K, g K := by
  rw [sum_chunks, Fin.sum_univ_four, zero_add]

/-- THE LAW.  For real activations `x`, real weights `w` and a real scale `s` (the bias `b` is arbitrary): the four
    chunk sums accumulated in order, scaled, plus the bias, is the one sum against the scaled weights, plus the bias. -/
theorem kernel_eq_reference (x w : Fin 4096 → EReal) (s b : EReal)
    (hx : ∀ k, IsReal (x k)) (hw : ∀ k, IsReal (w k)) (hs : IsReal s) :
    ((((0 + ∑ kk, x (col 0 kk) * w (col 0 kk)) + ∑ kk, x (col 1 kk) * w (col 1 kk))
        + ∑ kk, x (col 2 kk) * w (col 2 kk)) + ∑ kk, x (col 3 kk) * w (col 3 kk)) * s + b
      = (∑ K, x K * (w K * s)) + b := by
  rw [chain_eq_sum (fun K => x K * w K), sum_mul_real x w s hx hw hs]

end Cert.Law
-- ==== Proof.Spec.lean ====
/-
  The two programs' results as functions of four arrays, entry by entry, over the extended reals.

  `A` is the activations as a 4096 × 4096 matrix (token row, input feature), `W` the weights (output feature, input
  feature), `S` and `β` the scale and the bias as one row of 4096 output features.  Entry (r, o) of the kernel's
  matrix is the four chunk sums of `∑ K, A (r, K) · W (o, K)` added in order to zero, times `S o`, plus `β o`; the
  reference's is `∑ K, A (r, K) · (W (o, K) · S o) + β o`.  They agree when row `r` of `A`, row `o` of `W` and `S o`
  are real numbers.
-/
import proofs.«181760_j80504866996441_2_alg».proof.Proof.Law
import Idealize.ShloMosaic.Lib.ValueIdx

noncomputable section

namespace Cert.Spec

open Idealize.ShloMosaic Idealize.ShloMosaic.ValueIdx Cert.Law

/-- A 4096 × 4096 matrix's index set. -/
abbrev Mat : Shape := ⟨2, ![4096, 4096]⟩
/-- A single row of 4096 entries. -/
abbrev Row : Shape := ⟨2, ![1, 4096]⟩

/-- Chunk `j` of the contraction of row `r` of `A` with row `o` of `W`: 1024 products. -/
def chunk (A W : Mat.Idx → EReal) (r o : Fin 4096) (j : Fin 4) : EReal :=
  ∑ kk : Fin 1024, A (ix2 r (col j kk)) * W (ix2 o (col j kk))

/-- The four chunk sums added in order to zero. -/
def acc (A W : Mat.Idx → EReal) (r o : Fin 4096) : EReal :=
  (((0 + chunk A W r o 0) + chunk A W r o 1) + chunk A W r o 2) + chunk A W r o 3

/-- Entry (r, o) as the kernel computes it. -/
def kernelEntry (A W : Mat.Idx → EReal) (S β : Row.Idx → EReal) (r o : Fin 4096) : EReal :=
  acc A W r o * S (ix2 (0 : Fin 1) o) + β (ix2 (0 : Fin 1) o)

/-- The kernel's whole 4096 × 4096 matrix. -/
def kernelMat (A W : Mat.Idx → EReal) (S β : Row.Idx → EReal) : Mat.Idx → EReal :=
  fun i => kernelEntry A W S β ⟨(i 0).val, idx2_lt0 i⟩ ⟨(i 1).val, idx2_lt1 i⟩

/-- Entry (r, o) as the reference computes it: every weight scaled first, one sum, then the bias. -/
def refEntry (A W : Mat.Idx → EReal) (S β : Row.Idx → EReal) (r o : Fin 4096) : EReal :=
  (∑ K : Fin 4096, A (ix2 r K) * (W (ix2 o K) * S (ix2 (0 : Fin 1) o))) + β (ix2 (0 : Fin 1) o)

/-- The two agree at real entries (the bias is arbitrary). -/
theorem kernelEntry_eq_refEntry (A W : Mat.Idx → EReal) (S β : Row.Idx → EReal) (r o : Fin 4096)
    (hA : ∀ K, IsReal (A (ix2 r K))) (hW : ∀ K, IsReal (W (ix2 o K))) (hS : IsReal (S (ix2 (0 : Fin 1) o))) :
    kernelEntry A W S β r o = refEntry A W S β r o :=
  kernel_eq_reference (fun K => A (ix2 r K)) (fun K => W (ix2 o K)) _ _ hA hW hS

end Cert.Spec

end
-- ==== Proof.Total.lean ====
/-
  The running total read at one entry, over the extended reals.

  At a last-chunk point `t` (`t % 4 = 3`) entry (p, q) of the scratch block is the four chunk sums of row
  `2048 · (t / 16) + p` of the activations against row `1024 · (t / 4 % 4) + q` of the weights, added in order to
  zero: the three points before `t` have the same row and column blocks and the chunks 0, 1, 2.
-/
import proofs.«181760_j80504866996441_2_alg».proof.Proof.Gen.KernelIdeal.Frame
import Idealize.ShloMosaic.Lib.Pipeline.Value
import Idealize.ShloMosaic.Lib.Tactic
import proofs.«181760_j80504866996441_2_alg».proof.Proof.Accum
import proofs.«181760_j80504866996441_2_alg».proof.Proof.Payload
import proofs.«181760_j80504866996441_2_alg».proof.Proof.Spec

noncomputable section

open Idealize.ShloMosaic Idealize.ShloMosaic.TcCoe Idealize.SL.Sem
open Idealize.ShloMosaic.Pipeline (Dat)

namespace Cert.KernelIdeal.Total

open Cert.KernelIdeal Cert.KernelIdeal.Gen Cert.KernelIdeal.Blocks Cert.KernelIdeal.Accum
open Idealize.ShloMosaic.ValueIdx Cert.Law Cert.Spec

variable (m : (ℓ : Loc nD τ sig) → Buf (Elt Ideal) ℓ)

/-- One point's 1024 products at entry (p, q) of its blocks. -/
def chunkSum (c : Dev nD) (t : Fin cfg0.N) (p : Fin 2048) (q : Fin 1024) : EReal :=
  ∑ k : Fin 1024, actBlk m c t (ix2 p k) * wgtBlk m c t (ix2 q k)

/-- At a first chunk the total is the chunk's sum added to zero. -/
theorem total_first_apply (c : Dev nD) (n : ℕ) (h : n < cfg0.N) (h0 : n % 4 = 0) (p : Fin 2048) (q : Fin 1024) :
    total m c n h (ix2 p q) = 0 + chunkSum m c ⟨n, h⟩ p q := by
  rw [total_first m c n h h0]
  refine (Payload.step_apply _ _ _ p q).trans ?_
  rw [Payload.zero_apply]
  rfl

/-- At a later chunk it is the total before plus the chunk's sum. -/
theorem total_next_apply (c : Dev nD) (n : ℕ) (h : n + 1 < cfg0.N) (h0 : ¬(n + 1) % 4 = 0) (p : Fin 2048) (q : Fin 1024) :
    total m c (n + 1) h (ix2 p q) = total m c n (Nat.lt_of_succ_lt h) (ix2 p q) + chunkSum m c ⟨n + 1, h⟩ p q := by
  rw [total_next m c n h h0]
  exact Payload.step_apply _ _ _ p q

/-- A point's chunk sum is chunk `t % 4` of the contraction of the point's rows of the two arrays. -/
theorem chunkSum_eq (c : Dev nD) (t : Fin cfg0.N) (j : Fin 4) (hj : t.val % 4 = j.val) (p : Fin 2048) (q : Fin 1024)
    (r o : Fin 4096) (hr : r.val = t.val / 16 * 2048 + p.val) (ho : o.val = t.val / 4 % 4 * 1024 + q.val) :
    chunkSum m c t p q = chunk (V m c main_v10) (V m c main_v8) r o j := by
  unfold chunkSum chunk
  refine Finset.sum_congr rfl fun kk _ => ?_
  rw [act_apply m c t p kk (ix2 r (col j kk)) hr (by show j.val * 1024 + kk.val = _; rw [hj]),
    wgt_apply m c t q kk (ix2 o (col j kk)) ho (by show j.val * 1024 + kk.val = _; rw [hj])]

/-- The total at a last-chunk point is the four chunk sums in order. -/
theorem total_at (c : Dev nD) (t : Fin cfg0.N) (h3 : t.val % 4 = 3) (p : Fin 2048) (q : Fin 1024)
    (r o : Fin 4096) (hr : r.val = t.val / 16 * 2048 + p.val) (ho : o.val = t.val / 4 % 4 * 1024 + q.val) :
    total m c t.val t.isLt (ix2 p q) = acc (V m c main_v10) (V m c main_v8) r o := by
  obtain ⟨n, h⟩ := t
  obtain ⟨b, rfl⟩ : ∃ b, n = b + 1 + 1 + 1 := ⟨n - 3, by dsimp only at h3; omega⟩
  dsimp only at h3 hr ho ⊢
  have hb : b % 4 = 0 := by omega
  rw [total_next_apply m c (b + 1 + 1) h (by omega) p q, total_next_apply m c (b + 1) _ (by omega) p q,
    total_next_apply m c b _ (by omega) p q, total_first_apply m c b _ hb p q]
  unfold acc
  rw [chunkSum_eq m c ⟨b, _⟩ 0 (by dsimp only; omega) p q r o (by dsimp only; omega) (by dsimp only; omega),
    chunkSum_eq m c ⟨b + 1, _⟩ 1 (by dsimp only; omega) p q r o (by dsimp only; omega) (by dsimp only; omega),
    chunkSum_eq m c ⟨b + 1 + 1, _⟩ 2 (by dsimp only; omega) p q r o (by dsimp only; omega) (by dsimp only; omega),
    chunkSum_eq m c ⟨b + 1 + 1 + 1, _⟩ 3 (by dsimp only; omega) p q r o (by dsimp only; omega) (by dsimp only; omega)]

end Cert.KernelIdeal.Total

end
-- ==== Proof.Final.lean ====
/-
  From the output blocks to the result array.

  The output block of point `t` is written back only at the last chunk (`t % 4 = 3`), to rows
  `2048 · (t / 16) …` and columns `1024 · (t / 4 % 4) …` of the 4096 × 4096 result; these eight blocks tile it.  So
  after the region the result matrix is `Spec.kernelMat` of the four arrays the region was handed, and the
  operation after the region reads it back as 2 × 2048 × 4096.
-/
import proofs.«181760_j80504866996441_2_alg».proof.Proof.Gen.KernelIdeal.Frame
import Idealize.ShloMosaic.Lib.Pipeline.Value
import Idealize.ShloMosaic.Lib.Tactic
import proofs.«181760_j80504866996441_2_alg».proof.Proof.Total
import Idealize.ShloMosaic.Lib.StableHlo.Run

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Blocks Cert.KernelIdeal.Accum Cert.KernelIdeal.Total
open Idealize.ShloMosaic.ValueIdx Cert.Spec

variable (m : (ℓ : Loc nD τ sig) → Buf (Elt Ideal) ℓ) (ρ : Dev nD → PrngReg)

/-- The result matrix after the region, from the arrays the region is handed. -/
def resultMat (c : Dev nD) : Buf (Elt Ideal) ((c : Thread nD τ).loc main_v13) :=
  kernelMat (V m c main_v10) (V m c main_v8) (V m c main_v11) (V m c main_v12)

/-- Entry (p, q) of the block a last-chunk point writes is the result matrix at the block's offset entry. -/
theorem entry_eq (c : Dev nD) (t : Fin cfg0.N) (h3 : t.val % 4 = 3) (p : Fin 2048) (q : Fin 1024) (i : S4096x4096.Idx)
    (e0 : (i 0).val = t.val / 16 * 2048 + p.val) (e1 : (i 1).val = t.val / 4 % 4 * 1024 + q.val) :
    total m c t.val t.isLt (ix2 p q) * sclBlk m c t (ix2 (0 : Fin 1) q) + biasBlk m c t (ix2 (0 : Fin 1) q)
      = resultMat m c i := by
  unfold resultMat kernelMat kernelEntry
  rw [total_at m c t h3 p q ⟨(i 0).val, idx2_lt0 i⟩ ⟨(i 1).val, idx2_lt1 i⟩ e0 e1,
    scl_apply m c t 0 q (ix2 (0 : Fin 1) (⟨(i 1).val, idx2_lt1 i⟩ : Fin 4096)) rfl e1,
    bias_apply m c t 0 q (ix2 (0 : Fin 1) (⟨(i 1).val, idx2_lt1 i⟩ : Fin 4096)) rfl e1]

/-- What a last-chunk point writes back is its block of the result matrix. -/
theorem flushed_eq (c : Dev nD) (t : Fin cfg0.N) (hf : (cfg0.win 4).flush t = true) :
    (dats m 0 c).flushed 4 t = ((cfg0.win 4).blk t).view.read (Elt Ideal) (resultMat m c) := by
  have h3 : t.val % 4 = 3 := (flush0_4 t).mp hf
  have hi := idx_facts t
  show (cfg0.win 4).cut (grid0.coords t) ((dats m 0 c).after 4 t) = _
  rw [after0_4, out_eq m c t h3]
  funext y
  obtain ⟨p, q, rfl⟩ : ∃ (p : Fin 2048) (q : Fin 1024), y = ix2 p q := ⟨y 0, y 1, eq_ix2 y⟩
  rw [View.read_apply]
  show k0_pay3 (total m c t.val t.isLt) (sclBlk m c t) (biasBlk m c t) (ix2 p q)
    = resultMat m c (((cfg0.win 4).blk t).view.emb (ix2 p q))
  refine (Payload.epilogue_apply _ _ _ p q).trans ?_
  refine entry_eq m c t h3 p q _ ?_ ?_
  · show win0_4.index t (0 : Fin 2) * 2048 + 1 * p.val = _
    rw [hi.2.2.2.2.2.2.2.2.1]; omega
  · show win0_4.index t (1 : Fin 2) * 1024 + 1 * q.val = _
    rw [hi.2.2.2.2.2.2.2.2.2]; omega

/-- An entry of the result matrix is in point `t`'s block iff each coordinate is in the block's range. -/
theorem mem_blk (t : Fin cfg0.N) (i : S4096x4096.Idx) :
    i ∈ ((cfg0.win 4).blk t).view.set ↔ ∀ a : Fin 2, win0_4.index t a * S2048x1024.size a ≤ (i a).val
      ∧ (i a).val < win0_4.index t a * S2048x1024.size a + S2048x1024.size a := by
  show i ∈ ((View.whole main_v13).slice (win0_4.rect t)).set ↔ _
  rw [View.set_slice_whole, Rect.mem_set_unit]
  exact Iff.rfl

/-- Every block position (row block, column block) is some last-chunk point's. -/
theorem blk_onto : ∀ (q0 : Fin 2) (q1 : Fin 4), ∃ t : Fin cfg0.N, (cfg0.win 4).flush t = true
    ∧ win0_4.index t (0 : Fin 2) = q0.val ∧ win0_4.index t (1 : Fin 2) = q1.val :=
  (by decide +kernel : ∀ (q0 : Fin 2) (q1 : Fin 4), ∃ t : Fin grid0.N, win0_4.flush t = true
    ∧ win0_4.index t (0 : Fin 2) = q0.val ∧ win0_4.index t (1 : Fin 2) = q1.val)

/-- The eight written blocks cover the result matrix. -/
theorem cover (i : S4096x4096.Idx) :
    ∃ t : Fin cfg0.N, (cfg0.win 4).flush t = true ∧ i ∈ ((cfg0.win 4).blk t).view.set := by
  have hi0 : (i 0).val < 4096 := idx2_lt0 i
  have hi1 : (i 1).val < 4096 := idx2_lt1 i
  obtain ⟨t, hf, q0, q1⟩ := blk_onto ⟨(i 0).val / 2048, by omega⟩ ⟨(i 1).val / 1024, by omega⟩
  refine ⟨t, hf, ?_⟩
  rw [mem_blk]
  intro a
  match a with
  | ⟨0, _⟩ =>
    show win0_4.index t (0 : Fin 2) * 2048 ≤ (i 0).val ∧ (i 0).val < win0_4.index t (0 : Fin 2) * 2048 + 2048
    rw [q0]; dsimp only; omega
  | ⟨1, _⟩ =>
    show win0_4.index t (1 : Fin 2) * 1024 ≤ (i 1).val ∧ (i 1).val < win0_4.index t (1 : Fin 2) * 1024 + 1024
    rw [q1]; dsimp only; omega

/-- After the region the result matrix holds `resultMat`. -/
theorem final (c : Dev nD) : (dats m 0 c).arrAt 4 cfg0.N = resultMat m c :=
  (dats m 0 c).arrAt_eq_of_cover 4 (resultMat m c) (flushed_eq m c) cover

/-- The program's result: the result matrix read as 2 × 2048 × 4096. -/
def result (c : Dev nD) : Buf (Elt Ideal) ((c : Thread nD τ).loc main_v14) :=
  shapeCast S2x2048x4096 (resultMat m c) shapeCasts_S4096x4096_S2x2048x4096

/-- The operation after the region leaves that in the result buffer. -/
theorem tail_eq (c : Dev nD) :
    Pipeline.afterTail₀ cfgs (dats m) 0 (V0 m) [hostOps1] c main_v14 = result m c := by
  unfold Pipeline.afterTail₀
  show StableHlo.after hostOps1 _ (Proc.devRef .tc main_v14) = _
  after_results
  have hw : Pipeline.withArrays (cfgs 0).spec c (V0 m c) (fun w => (dats m 0 c).arrAt w (cfgs 0).N)
      (Proc.devRef .tc main_v13) = resultMat m c :=
    (Pipeline.withArrays_arr spec0 launch0.win.arr_inj c _ _ 4).trans (final m c)
  rw [hw]
  rfl

/-- THE KERNEL'S RUN, READ: every weakly fair execution terminates with the result buffer at `result` and the five
    arguments unchanged. -/
theorem run : θ_run defs (onTc (τ := τ) (main (F := Ideal))) ⟨m, fun _ => 0, ρ⟩ fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Final

end
-- ==== Proof.HostPre.lean ====
/-
  The four arrays the region is handed, read at one entry in terms of the program's inputs.

  Before the region the program lays the activations `x [2, 2048, 4096]` out as a 4096 × 4096 matrix (row
  `2048 · b + s`), dequantizes the weights — the codebook rows the codes select, laid out 4096 × 4096; this is the very
  term the reference computes —, and views the scales `[4096, 1]` and the bias `[4096]` as single rows.  The
  narrowing to bf16 on the way is the identity over the extended reals.
-/
import proofs.«181760_j80504866996441_2_alg».proof.Proof.Gen.KernelIdeal.Frame
import Idealize.ShloMosaic.Lib.Pipeline.Value
import Idealize.ShloMosaic.Lib.Tactic
import proofs.«181760_j80504866996441_2_alg».proof.Proof.Gen.ReferenceIdeal.Read
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.HostPre

open Cert.KernelIdeal Cert.KernelIdeal.Gen Idealize.ShloMosaic.ValueIdx

variable (m : (ℓ : Loc nD τ sig) → Buf (Elt Ideal) ℓ)

/-- The dequantized weight matrix, as the reference's own stage. -/
def weights (c : Dev nD) : S4096x4096.Idx → EReal :=
  Cert.ReferenceIdeal.Read.val_main_v7 (F := Ideal) (m ((c : Thread nD τ).loc main_arg1)) (m ((c : Thread nD τ).loc main_arg2))

/-- The weight array the region is handed is that matrix. -/
theorem V_wgt (c : Dev nD) : (V m c main_v8 : S4096x4096.Idx → EReal) = weights m c := by
  show StableHlo.after hostOps0 (fun b => m (c, b)) (Proc.devRef .tc main_v8) = _
  after_results
  rfl

/-- The activation array the region is handed is the input laid out as a matrix. -/
theorem V_act (c : Dev nD) : (V m c main_v10 : S4096x4096.Idx → EReal)
    = shapeCast S4096x4096 (m ((c : Thread nD τ).loc main_arg0)) shapeCasts_S2x2048x4096_S4096x4096 := by
  show StableHlo.after hostOps0 (fun b => m (c, b)) (Proc.devRef .tc main_v10) = _
  after_results
  rfl

/-- The scale array the region is handed is the scale column viewed as a row. -/
theorem V_scl (c : Dev nD) : (V m c main_v11 : S1x4096.Idx → EReal)
    = shapeCast S1x4096 (m ((c : Thread nD τ).loc main_arg3)) shapeCasts_S4096x1_S1x4096 := by
  show StableHlo.after hostOps0 (fun b => m (c, b)) (Proc.devRef .tc main_v11) = _
  after_results
  rfl

/-- The bias array the region is handed is the bias vector viewed as a row. -/
theorem V_bias (c : Dev nD) : (V m c main_v12 : S1x4096.Idx → EReal)
    = shapeCast S1x4096 (m ((c : Thread nD τ).loc main_arg4)) shapeCasts_S4096_S1x4096 := by
  show StableHlo.after hostOps0 (fun b => m (c, b)) (Proc.devRef .tc main_v12) = _
  after_results
  rfl

/-- Row `2048 · b + s`, column `K` of the activation matrix is `x (b, s, K)`. -/
theorem act_entry (c : Dev nD) (b : Fin 2) (s : Fin 2048) (K : Fin 4096) (r : Fin 4096) (hr : r.val = b.val * 2048 + s.val) :
    V m c main_v10 (ix2 r K) = m ((c : Thread nD τ).loc main_arg0) (ix3 b s K) := by
  rw [V_act]
  refine shapeCast_apply _ _ _ _ ?_
  show (S2x2048x4096.rowMajor (ix3 b s K)).val = (S4096x4096.rowMajor (ix2 r K)).val
  rw [Shape.rowMajor_val_three, Shape.rowMajor_val_two]
  show (b.val * 2048 + s.val) * 4096 + K.val = r.val * 4096 + K.val
  rw [hr]

/-- Column `o` of the scale row is the scale of output feature `o`. -/
theorem scl_entry (c : Dev nD) (o : Fin 4096) :
    V m c main_v11 (ix2 (0 : Fin 1) o) = m ((c : Thread nD τ).loc main_arg3) (ix2 o (0 : Fin 1)) := by
  rw [V_scl]
  refine shapeCast_apply _ _ _ _ ?_
  show (S4096x1.rowMajor (ix2 o (0 : Fin 1))).val = (S1x4096.rowMajor (ix2 (0 : Fin 1) o)).val
  rw [Shape.rowMajor_val_two, Shape.rowMajor_val_two]
  show o.val * 1 + 0 = 0 * 4096 + o.val
  omega

/-- Column `o` of the bias row is the bias of output feature `o`. -/
theorem bias_entry (c : Dev nD) (o : Fin 4096) :
    V m c main_v12 (ix2 (0 : Fin 1) o) = m ((c : Thread nD τ).loc main_arg4) (ix1 o) := by
  rw [V_bias]
  exact shapeCast_a_1a_apply _ _ 0 o

end Cert.KernelIdeal.HostPre

end
-- ==== Proof.Finite.lean ====
/-
  What the precondition says: every entry of the four float inputs is a real number.

  The precondition is the conjunction of four tests "every entry has absolute value below +∞".  On the extended
  reals `|x| = max x (-x)` is below `⊤` exactly when `x` is neither `⊤` nor `⊥`.
-/
import proofs.«181760_j80504866996441_2_alg».proof.Pre_finite_inputs
import proofs.«181760_j80504866996441_2_alg».proof.Proof.Gen.Pre_finite_inputs
import proofs.«181760_j80504866996441_2_alg».proof.Proof.Law
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.Finite

open Cert.Pre_finite_inputs Cert.Law

instance : Subsingleton S_.Idx := ⟨fun a b => funext fun d => d.elim0⟩

/-- The float word `0x7F800000` is `+∞`. -/
theorem inf_word : Ideal.ofBits .f32 0x7F800000#32 = (⊤ : EReal) := by simp [Ideal.ofBits, Ideal.ieee]

/-- An extended real whose absolute value is below `+∞` is a real number. -/
theorem isReal_of_abs_lt (x : EReal) (h : Ideal.cmp .olt (max x (-x)) (Ideal.ofBits .f32 0x7F800000#32) = 1#1) :
    IsReal x := by
  rw [inf_word] at h
  induction x using EReal.rec with
  | bot => simp [Ideal.cmp] at h
  | coe r => exact ⟨r, rfl⟩
  | top => simp [Ideal.cmp] at h

/-- Under the precondition every entry of the activations, the codebook, the scales and the bias is real. -/
theorem real_inputs (x0 : FVec Ideal S2x2048x4096 .f32) (x1 : IVec S4096x2048 32) (x2 : FVec Ideal S256x2 .f32)
    (x3 : FVec Ideal S4096x1 .f32) (x4 : FVec Ideal S4096 .f32)
    (h : fn (F := Ideal) x0 x1 x2 x3 x4 = fun _ => 1#1) :
    (∀ i, IsReal (x0 i)) ∧ (∀ i, IsReal (x2 i)) ∧ (∀ i, IsReal (x3 i)) ∧ (∀ i, IsReal (x4 i)) := by
  have h0 := congrFun h ix0
  dsimp only [fn, fn_part1] at h0
  obtain ⟨h012, h4⟩ := IntOp.andi_eq_one.mp h0
  obtain ⟨h01, h3⟩ := IntOp.andi_eq_one.mp h012
  obtain ⟨h1, h2⟩ := IntOp.andi_eq_one.mp h01
  refine ⟨fun i => ?_, fun i => ?_, fun i => ?_, fun i => ?_⟩
  · exact isReal_of_abs_lt _ (Host.reduce_andi_all _ _ _ _ ix0 h1 i)
  · exact isReal_of_abs_lt _ (Host.reduce_andi_all _ _ _ _ ix0 h2 i)
  · exact isReal_of_abs_lt _ (Host.reduce_andi_all _ _ _ _ ix0 h3 i)
  · exact isReal_of_abs_lt _ (Host.reduce_andi_all _ _ _ _ ix0 h4 i)

end Cert.Finite

end
-- ==== Proof.Bridge.lean ====
/-
  The bridge: under the precondition the kernel's result and the reference's are the same array.

  At entry (b, s, o) the kernel holds `Spec.kernelEntry` of the four arrays its region was handed, at row
  `2048 · b + s` and column `o`; the reference holds `∑ K, x (b, s, K) · (w (o, K) · scale o) + bias o`.  Read in terms of
  the inputs the four arrays are the reference's own operands, the weights literally the same term; every activation,
  every weight (an entry of the codebook, whatever the code) and every scale is a real number under the precondition;
  so `Spec.kernelEntry_eq_refEntry` applies.
-/
import proofs.«181760_j80504866996441_2_alg».proof.Proof.Gen.KernelIdeal.Frame
import Idealize.ShloMosaic.Lib.Pipeline.Value
import Idealize.ShloMosaic.Lib.Tactic
import proofs.«181760_j80504866996441_2_alg».proof.Proof.Final
import proofs.«181760_j80504866996441_2_alg».proof.Proof.HostPre
import proofs.«181760_j80504866996441_2_alg».proof.Proof.Finite

noncomputable section

open Idealize.ShloMosaic Idealize.ShloMosaic.TcCoe Idealize.SL.Sem
open Idealize.ShloMosaic.Pipeline (Dat)

namespace Cert.Bridge

open Cert.KernelIdeal Cert.KernelIdeal.Gen Cert.KernelIdeal.Final Cert.KernelIdeal.HostPre
open Idealize.ShloMosaic.ValueIdx Cert.Spec Cert.Law

variable (m : (ℓ : Loc nD τ sig) → Buf (Elt Ideal) ℓ)

/-! ## The reference's last stage at an entry -/

theorem lidx_eq (b : Fin 2) (s : Fin 2048) (o K : Fin 4096) : Cert.ReferenceIdeal.Read.lidx_main_v10 (ix3 b s o) K = ix3 b s K :=
  funext fun a => Fin.ext (by match a with | ⟨0, _⟩ => rfl | ⟨1, _⟩ => rfl | ⟨2, _⟩ => rfl)
theorem ridx_eq (b : Fin 2) (s : Fin 2048) (o K : Fin 4096) : Cert.ReferenceIdeal.Read.ridx_main_v10 (ix3 b s o) K = ix2 o K :=
  funext fun a => Fin.ext (by match a with | ⟨0, _⟩ => rfl | ⟨1, _⟩ => rfl)
theorem idx8_eq (o K : Fin 4096) : Cert.ReferenceIdeal.Read.idx_main_v8 (ix2 o K) = ix2 o (0 : Fin 1) :=
  funext fun a => Fin.ext (by match a with | ⟨0, _⟩ => rfl | ⟨1, _⟩ => rfl)
theorem idx11_eq (b : Fin 2) (s : Fin 2048) (o : Fin 4096) :
    Cert.ReferenceIdeal.Read.idx_main_v11 (Cert.ReferenceIdeal.Read.idx_main_v12 (ix3 b s o)) = ix1 o :=
  funext fun a => Fin.ext (by match a with | ⟨0, _⟩ => rfl)

/-- The reference at (b, s, o): one sum over the 4096 input features against the scaled weights, plus the bias. -/
theorem ref_apply (x0 : FVec Ideal Cert.ReferenceIdeal.S2x2048x4096 .f32) (x1 : IVec Cert.ReferenceIdeal.S4096x2048 32)
    (x2 : FVec Ideal Cert.ReferenceIdeal.S256x2 .f32) (x3 : FVec Ideal Cert.ReferenceIdeal.S4096x1 .f32)
    (x4 : FVec Ideal Cert.ReferenceIdeal.S4096 .f32) (b : Fin 2) (s : Fin 2048) (o : Fin 4096) :
    Cert.ReferenceIdeal.Read.val_main_v13 (F := Ideal) x0 x1 x2 x3 x4 (ix3 b s o)
      = (∑ K : Fin 4096, x0 (ix3 b s K) * (Cert.ReferenceIdeal.Read.val_main_v7 (F := Ideal) x1 x2 (ix2 o K) * x3 (ix2 o (0 : Fin 1)))) + x4 (ix1 o) := by
  rw [Cert.ReferenceIdeal.Read.val_main_v13_apply, Cert.ReferenceIdeal.Read.val_main_v10_apply, Cert.ReferenceIdeal.Read.val_main_v12_apply, Cert.ReferenceIdeal.Read.val_main_v11_apply, idx11_eq]
  simp only [Cert.ReferenceIdeal.Read.val_main_v9_apply, Cert.ReferenceIdeal.Read.val_main_v8_apply, lidx_eq, ridx_eq, idx8_eq, Ideal.addf_def, Ideal.mulf_def]

/-! ## Every weight is an entry of the codebook -/

theorem weights_real (c : Dev nD) (h2 : ∀ i, IsReal (m ((c : Thread nD τ).loc main_arg2) i)) (j : S4096x4096.Idx) :
    IsReal (weights m c j) := by
  unfold weights
  rw [Cert.ReferenceIdeal.Read.val_main_v7_apply]
  unfold Cert.ReferenceIdeal.Read.val_main_v6 Host.gather
  exact h2 _

/-! ## The two results agree -/

/-- Under the precondition the kernel's result is the reference's last stage of the same inputs. -/
theorem result_eq (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    result m c = Cert.ReferenceIdeal.Read.val_main_v13 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  obtain ⟨h0, h2, h3, -⟩ := Cert.Finite.real_inputs _ _ _ _ _ hpre
  funext i
  obtain ⟨b, s, o, rfl⟩ : ∃ (b : Fin 2) (s : Fin 2048) (o : Fin 4096), i = ix3 b s o := ⟨i 0, i 1, i 2, eq_ix3 i⟩
  have hr : b.val * 2048 + s.val < 4096 := by have := b.isLt; have := s.isLt; omega
  rw [ref_apply]
  unfold result
  refine (shapeCast_apply (resultMat m c) shapeCasts_S4096x4096_S2x2048x4096 (ix3 b s o) (ix2 (⟨b.val * 2048 + s.val, hr⟩ : Fin 4096) o) (by
    show (S4096x4096.rowMajor (ix2 (⟨b.val * 2048 + s.val, hr⟩ : Fin 4096) o)).val = (S2x2048x4096.rowMajor (ix3 b s o)).val
    rw [Shape.rowMajor_val_three, Shape.rowMajor_val_two]; rfl)).trans ?_
  show kernelEntry (V m c main_v10) (V m c main_v8) (V m c main_v11) (V m c main_v12) ⟨b.val * 2048 + s.val, hr⟩ o = _
  have eA : ∀ K : Fin 4096, V m c main_v10 (ix2 (⟨b.val * 2048 + s.val, hr⟩ : Fin 4096) K)
      = m ((c : Thread nD τ).loc main_arg0) (ix3 b s K) := fun K => act_entry m c b s K _ rfl
  rw [kernelEntry_eq_refEntry _ _ _ _ _ _ (fun K => by rw [eA K]; exact h0 _)
    (fun K => by rw [V_wgt]; exact weights_real m c h2 _) (by rw [scl_entry]; exact h3 _)]
  unfold refEntry
  rw [scl_entry, bias_entry, V_wgt]
  refine congrArg (· + _) (Finset.sum_congr rfl fun K _ => ?_)
  rw [eA K]
  rfl

end Cert.Bridge

end
-- ==== Proof.lean ====
/-
  A quantized linear layer: `y = x · Wᵀ · scale + bias` against `y = x · (W · scale)ᵀ + bias`.

  Both programs dequantize the same weight matrix `W [4096, 4096]`: row `o` is the concatenation of the 2048
  two-entry codebook rows that the codes of output feature `o` select (a negative code is wrapped once by the
  codebook's length and the index is then clamped into the codebook, so every weight is a codebook entry whatever
  the code).

  The kernel views `x [2, 2048, 4096]` as 4096 token rows, and on a 2 × 4 × 4 grid of (row block of 2048, column
  block of 1024, chunk of 1024 input features) keeps a running total per output block: zero at the first chunk, plus
  the chunk's product `x-block · W-blockᵀ` at every chunk; at the last chunk it writes
  `total · scale + bias`, the scale and the bias of the block's 1024 output features.  The reference multiplies every
  weight by its output feature's scale first, contracts all 4096 input features in one sum, and adds the bias.

  Over the extended reals the two agree entry by entry when the activations, the codebook and the scales are finite:
  a sum over 4096 terms is the sum of its four chunk sums in any order (no finiteness needed), and the common factor
  `scale o` moves across the sum because every term is a real number (Proof/Law.lean).  The precondition states
  exactly that finiteness (Proof/Finite.lean).

  The modules: Law (the algebra), Spec (both results as functions of four arrays), Cases / Payload (what one grid
  point's body leaves, and its three stored values at an entry), Blocks (a point's input blocks as pieces of the
  arrays), Accum / Total (the running total by induction on the point, and at an entry), Final (from the eight
  written blocks to the result array and through the last reshape), HostPre (the arrays the region is handed, from
  the inputs), Finite, Bridge (the two results are one array).  The runs of the three programs themselves — that
  every execution terminates, faults nowhere and leaves the arguments alone — are the generated modules'.
-/
import proofs.«181760_j80504866996441_2_alg».proof.Defs
import proofs.«181760_j80504866996441_2_alg».proof.Proof.Gen.Kernel
import proofs.«181760_j80504866996441_2_alg».proof.Proof.Gen.Kernel.Skeleton
import proofs.«181760_j80504866996441_2_alg».proof.Proof.Gen.Kernel.Launch
import proofs.«181760_j80504866996441_2_alg».proof.Proof.Gen.Kernel.Points
import proofs.«181760_j80504866996441_2_alg».proof.Proof.Gen.Kernel.Frame
import proofs.«181760_j80504866996441_2_alg».proof.Proof.Gen.KernelIdeal
import proofs.«181760_j80504866996441_2_alg».proof.Proof.Gen.KernelIdeal.Skeleton
import proofs.«181760_j80504866996441_2_alg».proof.Proof.Gen.KernelIdeal.Launch
import proofs.«181760_j80504866996441_2_alg».proof.Proof.Gen.KernelIdeal.Points
import proofs.«181760_j80504866996441_2_alg».proof.Proof.Gen.KernelIdeal.Frame
import proofs.«181760_j80504866996441_2_alg».proof.Proof.Gen.ReferenceIdeal
import proofs.«181760_j80504866996441_2_alg».proof.Proof.Gen.ReferenceIdeal.Run
import proofs.«181760_j80504866996441_2_alg».proof.Proof.Gen.ReferenceIdeal.Read
import proofs.«181760_j80504866996441_2_alg».proof.Proof.Gen.Pre_finite_inputs
import proofs.«181760_j80504866996441_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- From inputs that agree, both programs end with `Final.result`: the kernel by its run read back, the reference
    because its last stage of the same finite inputs is that array (`Bridge.result_eq`). -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2.1, (hagree c).2.2.2.1,
    (hagree c).2.2.2.2]
  exact (Cert.Bridge.result_eq m c (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
